-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S64x64 : Shape := ⟨2, ![64, 64]⟩
abbrev S128x128 : Shape := ⟨2, ![128, 128]⟩
abbrev S128 : Shape := ⟨1, ![128]⟩
abbrev S8x192 : Shape := ⟨2, ![8, 192]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x192 : S_.BroadcastsInDim S8x192 (![] : Fin 0 → Fin S8x192.rank)
  reducesTo_S8x192_S_d0_1 : S8x192.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S128x128 .f32) (main_arg10 : FVec F S8x192 .f32) (main_arg11 : FVec F S8 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S8x192 .f32 := Host.absf main_arg10
  let main_cst_14 : FVec F S_ .f32 := constant S_ .f32 0x7F800000#32
  let main_v40 : FVec F S8x192 .f32 := broadcastInDim S8x192 ![] bcast_S_S8x192 main_cst_14
  let main_v41 : IVec S8x192 1 := cmpf .olt main_v39 main_v40
  let main_c_15 : IVec S_ 1 := constantI S_ 1 1#1
  let main_v42 : IVec S_ 1 := (fun x v => Host.reduce IntOp.andi x v reducesTo_S8x192_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S8x192 .f32) (main_arg11 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x800000 32) (main_arg2 : IVec S100000 32) (main_arg3 : FVec F S64x64 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S8x192 .f32) (main_arg11 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S64x64 : Shape := ⟨2, ![64, 64]⟩
abbrev S128x128 : Shape := ⟨2, ![128, 128]⟩
abbrev S128 : Shape := ⟨1, ![128]⟩
abbrev S8x192 : Shape := ⟨2, ![8, 192]⟩
abbrev S8 : Shape := ⟨1, ![8]⟩
abbrev S1x800000 : Shape := ⟨2, ![1, 800000]⟩
abbrev S800000 : Shape := ⟨1, ![800000]⟩
abbrev S192x8 : Shape := ⟨2, ![192, 8]⟩
abbrev S_ : Shape := ⟨0, ![]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩
abbrev S4000x128 : Shape := ⟨2, ![4000, 128]⟩
abbrev S4000x1 : Shape := ⟨2, ![4000, 1]⟩
abbrev S64x128 : Shape := ⟨2, ![64, 128]⟩
abbrev S64x1 : Shape := ⟨2, ![64, 1]⟩
abbrev S64x192 : Shape := ⟨2, ![64, 192]⟩
abbrev S64x8 : Shape := ⟨2, ![64, 8]⟩
abbrev S1x8 : Shape := ⟨2, ![1, 8]⟩

abbrev nBuf : Space → Nat
  | .hbm => 85
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S8x192, .f32⟩
  | .hbm, ⟨11, _⟩ => ⟨S8, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S192x8, .f32⟩
  | .hbm, ⟨21, _⟩ => ⟨S_, .f32⟩
  | .hbm, ⟨22, _⟩ => ⟨S800000x1, .f32⟩
  | .hbm, ⟨23, _⟩ => ⟨S_, .f32⟩
  | .hbm, ⟨24, _⟩ => ⟨S100000x1, .f32⟩
  | .hbm, ⟨25, _⟩ => ⟨S800000x1, .i32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S_, .f32⟩
  | .hbm, ⟨31, _⟩ => ⟨S100000x1, .f32⟩
  | .hbm, ⟨32, _⟩ => ⟨S100000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S100000x128, .f32⟩
  | .hbm, ⟨44, _⟩ => ⟨S800000x1, .i32⟩
  | .hbm, ⟨45, _⟩ => ⟨S100000x128, .f32⟩
  | .hbm, ⟨46, _⟩ => ⟨S1x128, .f32⟩
  | .hbm, ⟨47, _⟩ => ⟨S100000x128, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .bf16⟩
  | .hbm, ⟨57, _⟩ => ⟨S800000x128, .f32⟩
  | .hbm, ⟨58, _⟩ => ⟨S_, .f32⟩
  | .hbm, ⟨59, _⟩ => ⟨S100000x128, .f32⟩
  | .hbm, ⟨60, _⟩ => ⟨S800000x1, .i32⟩
  | .hbm, ⟨61, _⟩ => ⟨S100000x128, .f32⟩
  | .hbm, ⟨62, _⟩ => ⟨S1x128, .f32⟩
  | .hbm, ⟨63, _⟩ => ⟨S100000x128, .bf16⟩
  | .hbm, ⟨64, _⟩ => ⟨S100000x128, .f32⟩
  | .hbm, ⟨65, _⟩ => ⟨S_, .f32⟩
  | .hbm, ⟨66, _⟩ => ⟨S64x128, .f32⟩
  | .hbm, ⟨67, _⟩ => ⟨S100000x1, .i32⟩
  | .hbm, ⟨68, _⟩ => ⟨S64x128, .f32⟩
  | .hbm, ⟨69, _⟩ => ⟨S_, .f32⟩
  | .hbm, ⟨70, _⟩ => ⟨S100000x1, .f32⟩
  | .hbm, ⟨71, _⟩ => ⟨S_, .f32⟩
  | .hbm, ⟨72, _⟩ => ⟨S64x1, .f32⟩
  | .hbm, ⟨73, _⟩ => ⟨S100000x1, .i32⟩
  | .hbm, ⟨74, _⟩ => ⟨S64x1, .f32⟩
  | .hbm, ⟨75, _⟩ => ⟨S_, .f32⟩
  | .hbm, ⟨76, _⟩ => ⟨S64x1, .f32⟩
  | .hbm, ⟨77, _⟩ => ⟨S64x1, .f32⟩
  | .hbm, ⟨78, _⟩ => ⟨S64x128, .f32⟩
  | .hbm, ⟨79, _⟩ => ⟨S64x128, .f32⟩
  | .hbm, ⟨80, _⟩ => ⟨S64x192, .f32⟩
  | .hbm, ⟨81, _⟩ => ⟨S64x8, .f32⟩
  | .hbm, ⟨82, _⟩ => ⟨S1x8, .f32⟩
  | .hbm, ⟨83, _⟩ => ⟨S64x8, .f32⟩
  | .hbm, ⟨84, _⟩ => ⟨S64x8, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S4000x128, .bf16⟩
  | .local _ .vmem, ⟨21, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  transposes_S8x192_S192x8_1_0 : S8x192.Transposes [1, 0] S192x8
  bcast_S_S800000x1 : S_.BroadcastsInDim S800000x1 (![] : Fin 0 → Fin S800000x1.rank)
  bcast_S_S100000x1 : S_.BroadcastsInDim S100000x1 (![] : Fin 0 → Fin S100000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  concatenates_S64x128_S64x64_S64x192_d1 : Shape.Concatenates [S64x128, S64x64] S64x192 1
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S100000x1_S800000x1_S800000x1_1_0_0_1_wf : ScatterDims.WF S100000x1 S800000x1 S800000x1 [1] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x128_S4000x128_1_0_0_1_n_n_wf : DotDims.WF S4000x128 S128x128 S4000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x192_S192x8_S64x8_1_0_0_1_n_n_wf : DotDims.WF S64x192 S192x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)

variable [Facts₀]

def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x192_S192x8_S64x8_1_0_0_1_n_n : DotDims S64x192 S192x8 S64x8 where
  lhsContracting := [1]
  rhsContracting := [0]
  lhsNonContracting := [0]
  rhsNonContracting := [1]
  lhsBatch := []
  rhsBatch := []
  wf := dot_S64x192_S192x8_S64x8_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S64x64 : Shape := ⟨2, ![64, 64]⟩
abbrev S128x128 : Shape := ⟨2, ![128, 128]⟩
abbrev S128 : Shape := ⟨1, ![128]⟩
abbrev S8x192 : Shape := ⟨2, ![8, 192]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S64x128 : Shape := ⟨2, ![64, 128]⟩
abbrev S64x1 : Shape := ⟨2, ![64, 1]⟩
abbrev S64x192 : Shape := ⟨2, ![64, 192]⟩
abbrev S192x8 : Shape := ⟨2, ![192, 8]⟩
abbrev S64x8 : Shape := ⟨2, ![64, 8]⟩
abbrev S1x8 : Shape := ⟨2, ![1, 8]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S8x192, .f32⟩
  | .hbm, ⟨11, _⟩ => ⟨S8, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S100000x128, .f32⟩
  | .hbm, ⟨27, _⟩ => ⟨S800000x1, .i32⟩
  | .hbm, ⟨28, _⟩ => ⟨S100000x128, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S100000x1, .f32⟩
  | .hbm, ⟨33, _⟩ => ⟨S800000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S100000x128, .f32⟩
  | .hbm, ⟨62, _⟩ => ⟨S800000x1, .i32⟩
  | .hbm, ⟨63, _⟩ => ⟨S100000x128, .f32⟩
  | .hbm, ⟨64, _⟩ => ⟨S_, .f32⟩
  | .hbm, ⟨65, _⟩ => ⟨S800000x1, .f32⟩
  | .hbm, ⟨66, _⟩ => ⟨S_, .f32⟩
  | .hbm, ⟨67, _⟩ => ⟨S100000x1, .f32⟩
  | .hbm, ⟨68, _⟩ => ⟨S800000x1, .i32⟩
  | .hbm, ⟨69, _⟩ => ⟨S100000x1, .f32⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S64x128, .f32⟩
  | .hbm, ⟨88, _⟩ => ⟨S100000x1, .i32⟩
  | .hbm, ⟨89, _⟩ => ⟨S64x128, .f32⟩
  | .hbm, ⟨90, _⟩ => ⟨S_, .f32⟩
  | .hbm, ⟨91, _⟩ => ⟨S100000x1, .f32⟩
  | .hbm, ⟨92, _⟩ => ⟨S_, .f32⟩
  | .hbm, ⟨93, _⟩ => ⟨S64x1, .f32⟩
  | .hbm, ⟨94, _⟩ => ⟨S100000x1, .i32⟩
  | .hbm, ⟨95, _⟩ => ⟨S64x1, .f32⟩
  | .hbm, ⟨96, _⟩ => ⟨S_, .f32⟩
  | .hbm, ⟨97, _⟩ => ⟨S64x1, .f32⟩
  | .hbm, ⟨98, _⟩ => ⟨S64x1, .f32⟩
  | .hbm, ⟨99, _⟩ => ⟨S64x128, .f32⟩
  | .hbm, ⟨100, _⟩ => ⟨S64x128, .f32⟩
  | .hbm, ⟨101, _⟩ => ⟨S64x192, .f32⟩
  | .hbm, ⟨102, _⟩ => ⟨S192x8, .f32⟩
  | .hbm, ⟨103, _⟩ => ⟨S64x8, .f32⟩
  | .hbm, ⟨104, _⟩ => ⟨S1x8, .f32⟩
  | .hbm, ⟨105, _⟩ => ⟨S64x8, .f32⟩
  | .hbm, ⟨106, _⟩ => ⟨S64x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S800000x1 : S_.BroadcastsInDim S800000x1 (![] : Fin 0 → Fin S800000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  concatenates_S64x128_S64x64_S64x192_d1 : Shape.Concatenates [S64x128, S64x64] S64x192 1
  transposes_S8x192_S192x8_1_0 : S8x192.Transposes [1, 0] S192x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000x1_S800000x1_S800000x1_1_0_0_1_wf : ScatterDims.WF S100000x1 S800000x1 S800000x1 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x192_S192x8_S64x8_1_0_0_1_n_n_wf : DotDims.WF S64x192 S192x8 S64x8 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x192_S192x8_S64x8_1_0_0_1_n_n : DotDims S64x192 S192x8 S64x8 where
  lhsContracting := [1]
  rhsContracting := [0]
  lhsNonContracting := [0]
  rhsNonContracting := [1]
  lhsBatch := []
  rhsBatch := []
  wf := dot_S64x192_S192x8_S64x8_1_0_0_1_n_n_wf

class Facts : Prop extends Facts₀ where

variable [Facts]
-- ==== Proof.KernelRun.lean ====
/-
  The idealized kernel's run with every buffer named.

  The program is five stretches in a row: host operations, the first layer's kernel over a grid of 25 row blocks, host
  operations, the second layer's kernel, host operations. Run from any memory, every weakly fair execution ends, and
  every buffer the program's host level can name then holds the contents the five stretches compose to (`Gen.W5`): the
  launch memory pushed through the first stretch's operations, the first kernel's result array put in place, and so
  on. The generated frame states this run for the argument arrays only; here the same run is stated for every buffer, so
  that the result array can be read off it.
-/
import proofs.«106729_j23424751632407_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that is not scoped to a
    kernel then holds the composed contents `W5`. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Whole

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibSageLayer.lean ====
/-
  One mean-aggregating graph layer, on the extended reals.

  For node features `h` and neighbour sums `s` (both `[M, K]`), a column `w` of per-node weights (`[M, 1]`), two
  weight matrices `wl`, `wr` (`[K, N]`) and a bias row `b` (`[1, N]`), the layer's entry `(p, q)` is

      max ( (∑ k, (s (p, k) * w (p, 0)) * wl (k, q)) + b (0, q) + ∑ k, h (p, k) * wr (k, q) , 0 ).

  An entry depends on row `p` of `h`, `s` and `w` only, so a block of rows of the layer is the layer of that block
  of rows (`layer_rows`). Dividing by a nonzero extended real is multiplying by its reciprocal
  (`div_eq_mul_recip`: both are `x * d⁻¹`), so a mean taken as `s / d` and one taken as `s * (1 / d)` agree wherever
  the count `d` is not zero, infinite counts included.
-/
import proofs.«106729_j23424751632407_2_alg».proof.Proof.LibPlainDot
import proofs.«106729_j23424751632407_2_alg».proof.Proof.LibRowBias

noncomputable section

namespace Cert.SageLayer

open Idealize.ShloMosaic Idealize.ShloMosaic.ValueIdx Cert.LibPlainDot Cert.LibRowBias

/-- Row `p` of `s` multiplied through by entry `p` of the column `w`. -/
def scaleRows {M K : ℕ} (s : (⟨2, ![M, K]⟩ : Shape).Idx → EReal) (w : (⟨2, ![M, 1]⟩ : Shape).Idx → EReal) :
    (⟨2, ![M, K]⟩ : Shape).Idx → EReal :=
  fun i => s i * w (ix2 (⟨(i 0).val, idx2_lt0 i⟩ : Fin M) (0 : Fin 1))

theorem scaleRows_apply {M K : ℕ} (s : (⟨2, ![M, K]⟩ : Shape).Idx → EReal) (w : (⟨2, ![M, 1]⟩ : Shape).Idx → EReal)
    (p : Fin M) (k : Fin K) : scaleRows s w (ix2 p k) = s (ix2 p k) * w (ix2 p (0 : Fin 1)) := rfl

/-- The layer: weighted neighbour sums times `wl`, plus the bias row, plus the features times `wr`, floored at zero. -/
def layer {M K N : ℕ} (h s : (⟨2, ![M, K]⟩ : Shape).Idx → EReal) (w : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal :=
  fun i => max (rowBias (rowsTimes (scaleRows s w) wl) b i + rowsTimes h wr i) 0

/-- Rows `o, …, o + R - 1` of the layer are the layer of those rows of `h`, `s` and `w`. -/
theorem layer_rows {M R K N : ℕ} (o : ℕ) (h s : (⟨2, ![M, K]⟩ : Shape).Idx → EReal) (w : (⟨2, ![M, 1]⟩ : Shape).Idx → EReal)
    (hb sb : (⟨2, ![R, K]⟩ : Shape).Idx → EReal) (wb : (⟨2, ![R, 1]⟩ : Shape).Idx → EReal)
    (wl wr : (⟨2, ![K, N]⟩ : Shape).Idx → EReal) (b : (⟨2, ![1, N]⟩ : Shape).Idx → EReal)
    (hh : ∀ (y : Fin R) (k : Fin K) (hlt : o + y.val < M), hb (ix2 y k) = h (ix2 (⟨o + y.val, hlt⟩ : Fin M) k))
    (hs : ∀ (y : Fin R) (k : Fin K) (hlt : o + y.val < M), sb (ix2 y k) = s (ix2 (⟨o + y.val, hlt⟩ : Fin M) k))
    (hw : ∀ (y : Fin R) (hlt : o + y.val < M), wb (ix2 y (0 : Fin 1)) = w (ix2 (⟨o + y.val, hlt⟩ : Fin M) (0 : Fin 1)))
    (y : (⟨2, ![R, N]⟩ : Shape).Idx) (i : (⟨2, ![M, N]⟩ : Shape).Idx) (h0 : (i 0).val = o + (y 0).val) (h1 : (i 1).val = (y 1).val) :
    layer hb sb wb wl wr b y = layer h s w wl wr b i := by
  have hsc : ∀ (p : Fin R) (k : Fin K) (hlt : o + p.val < M),
      scaleRows sb wb (ix2 p k) = scaleRows s w (ix2 (⟨o + p.val, hlt⟩ : Fin M) k) := fun p k hlt => by
    rw [scaleRows_apply, scaleRows_apply, hs p k hlt, hw p hlt]
  have hrt : ∀ (p : Fin R) (q : Fin N) (hlt : o + p.val < M),
      rowsTimes (scaleRows sb wb) wl (ix2 p q) = rowsTimes (scaleRows s w) wl (ix2 (⟨o + p.val, hlt⟩ : Fin M) q) :=
    fun p q hlt => rowsTimes_rows o (scaleRows s w) (scaleRows sb wb) wl hsc (ix2 p q) (ix2 (⟨o + p.val, hlt⟩ : Fin M) q) rfl rfl
  unfold layer
  rw [rowBias_rows o (rowsTimes (scaleRows s w) wl) (rowsTimes (scaleRows sb wb) wl) b hrt y i h0 h1,
    rowsTimes_rows o h hb wr hh y i h0 h1]

/-- The same, with the weight matrices and the bias row given up to equality: a kernel's windows onto those whole
    arrays are the arrays themselves. -/
theorem layer_block {M R K N : ℕ} (o : ℕ) (h s : (⟨2, ![M, K]⟩ : Shape).Idx → EReal) (w : (⟨2, ![M, 1]⟩ : Shape).Idx → EReal)
    (hb sb : (⟨2, ![R, K]⟩ : Shape).Idx → EReal) (wb : (⟨2, ![R, 1]⟩ : Shape).Idx → EReal)
    (wl wr : (⟨2, ![K, N]⟩ : Shape).Idx → EReal) (b : (⟨2, ![1, N]⟩ : Shape).Idx → EReal)
    (wl' wr' : (⟨2, ![K, N]⟩ : Shape).Idx → EReal) (b' : (⟨2, ![1, N]⟩ : Shape).Idx → EReal)
    (ewl : wl' = wl) (ewr : wr' = wr) (eb : b' = b)
    (hh : ∀ (y : Fin R) (k : Fin K) (hlt : o + y.val < M), hb (ix2 y k) = h (ix2 (⟨o + y.val, hlt⟩ : Fin M) k))
    (hs : ∀ (y : Fin R) (k : Fin K) (hlt : o + y.val < M), sb (ix2 y k) = s (ix2 (⟨o + y.val, hlt⟩ : Fin M) k))
    (hw : ∀ (y : Fin R) (hlt : o + y.val < M), wb (ix2 y (0 : Fin 1)) = w (ix2 (⟨o + y.val, hlt⟩ : Fin M) (0 : Fin 1)))
    (y : (⟨2, ![R, N]⟩ : Shape).Idx) (i : (⟨2, ![M, N]⟩ : Shape).Idx) (h0 : (i 0).val = o + (y 0).val) (h1 : (i 1).val = (y 1).val) :
    layer hb sb wb wl' wr' b' y = layer h s w wl wr b i := by
  subst ewl ewr eb
  exact layer_rows o h s w hb sb wb wl' wr' b' hh hs hw y i h0 h1

/-- A quotient by a nonzero extended real is the product with the reciprocal taken the same way. -/
theorem div_eq_mul_recip (x d : EReal) (hd : d ≠ 0) : Ideal.div x d = x * Ideal.div 1 d := by
  rw [Ideal.div, Ideal.div, if_neg hd, if_neg hd, one_mul]

/-- A maximum with one is not zero. -/
theorem max_one_ne_zero (c : EReal) : max c 1 ≠ 0 :=
  ne_of_gt (lt_of_lt_of_le zero_lt_one (le_max_right c 1))

end Cert.SageLayer

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«106729_j23424751632407_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibSageForms.lean ====
/-
  The two spellings of the layer, each read as `layer`.

  A kernel body multiplies the neighbour sums by a column of reciprocals broadcast along the lanes, takes two matrix
  products into a zero accumulator, adds a one-row bias broadcast over the rows and floors at a splat zero. The host
  divides the neighbour sums by the broadcast counts, takes two `dot_general`s, adds the bias vector broadcast twice
  and takes the maximum with a broadcast zero. On the extended reals both are `layer`: the kernel's directly, the host's
  with the column of weights `1 / d`, because a quotient by a nonzero `d` is the product with `1 / d`.
-/
import proofs.«106729_j23424751632407_2_alg».proof.Proof.LibSageLayer
import proofs.«106729_j23424751632407_2_alg».proof.Proof.LibColumns
import proofs.«106729_j23424751632407_2_alg».proof.Proof.LibRowBiasHost
import Idealize.ShloMosaic.Lib.Pipeline.Value
import Idealize.ShloMosaic.Lib.ValueLayout
import Idealize.ShloMosaic.Lib.IdealHost
import Idealize.ShloMosaic.PureOps.Ideal.Laws

noncomputable section

namespace Cert.SageLayer

open Idealize.ShloMosaic Idealize.ShloMosaic.ValueIdx Cert.LibPlainDot Cert.LibRowBias Cert.Columns

/-- A change of float format does nothing to an array of extended reals. -/
theorem truncf_id {s : Shape} {φ ψ : FTy} (a : FVec Ideal s φ) (h : ψ.bits < φ.bits) :
    (truncf ψ a h : FVec Ideal s ψ) = a := rfl
theorem extf_id {s : Shape} {φ ψ : FTy} (a : FVec Ideal s φ) (h : φ.bits < ψ.bits) :
    (extf ψ a h : FVec Ideal s ψ) = a := rfl

/-- Neighbour sums times a column broadcast along the lanes are the sums with their rows scaled. -/
theorem mulf_column {M K : ℕ} (s : FVec Ideal ⟨2, ![M, K]⟩ .f32) (w : FVec Ideal ⟨2, ![M, 1]⟩ .f32)
    (hw : (⟨2, ![M, 1]⟩ : Shape).Broadcasts ⟨2, ![M, K]⟩) :
    mulf s (broadcastTo ⟨2, ![M, K]⟩ w hw) = scaleRows s w := by
  funext j
  obtain ⟨a, k, rfl⟩ : ∃ (a : Fin M) (k : Fin K), j = ix2 a k := ⟨j 0, j 1, eq_ix2 j⟩
  rw [scaleRows_apply]
  show s (ix2 a k) * broadcastTo ⟨2, ![M, K]⟩ w hw (ix2 a k) = _
  rw [broadcastTo_a1_ab_apply]

/-- The body's spelling: two products into the zero splat, a broadcast bias row, a splat floor. -/
theorem body_form {M K N : ℕ} {φ₁ φ₂ φ₃ φ₄ : FTy}
    (h : FVec Ideal ⟨2, ![M, K]⟩ φ₁) (s : FVec Ideal ⟨2, ![M, K]⟩ .f32) (w : FVec Ideal ⟨2, ![M, 1]⟩ .f32)
    (wl : FVec Ideal ⟨2, ![K, N]⟩ φ₂) (wr : FVec Ideal ⟨2, ![K, N]⟩ φ₃) (b : FVec Ideal ⟨2, ![1, N]⟩ .f32)
    (sw : FVec Ideal ⟨2, ![M, K]⟩ φ₄)
    (hw : (⟨2, ![M, 1]⟩ : Shape).Broadcasts ⟨2, ![M, K]⟩) (hb : (⟨2, ![1, N]⟩ : Shape).Broadcasts ⟨2, ![M, N]⟩)
    (hsw : sw = mulf s (broadcastTo ⟨2, ![M, K]⟩ w hw)) :
    maximumf (addf (addf (FloatOps.matmul (DotDims.plain M K N) none sw wl (constant ⟨2, ![M, N]⟩ .f32 0x00000000#32))
          (broadcastTo ⟨2, ![M, N]⟩ b hb))
        (FloatOps.matmul (DotDims.plain M K N) none h wr (constant ⟨2, ![M, N]⟩ .f32 0x00000000#32)))
      (broadcast ⟨2, ![M, N]⟩ (Scalar.ofBits (F := Ideal) .f32 0x00000000#32))
    = layer h s w wl wr b := by
  rw [matmul_zero_plain, matmul_zero_plain, hsw, mulf_column]
  funext i
  obtain ⟨p, q, rfl⟩ : ∃ (p : Fin M) (q : Fin N), i = ix2 p q := ⟨i 0, i 1, eq_ix2 i⟩
  show max (rowsTimes (scaleRows s w) wl (ix2 p q) + broadcastTo ⟨2, ![M, N]⟩ b hb (ix2 p q) + rowsTimes h wr (ix2 p q))
      (Ideal.ofBits .f32 0x00000000#32)
    = max (rowBias (rowsTimes (scaleRows s w) wl) b (ix2 p q) + rowsTimes h wr (ix2 p q)) 0
  rw [broadcastTo_1b_ab_apply, Ideal.ofBits_zero_f32, rowBias_apply]

/-- Neighbour sums divided by a broadcast column of nonzero counts are the sums with their rows scaled by the
    column of reciprocals `one / d`, where `one` is a column of ones. -/
theorem divf_column {M K : ℕ} (s : FVec Ideal ⟨2, ![M, K]⟩ .f32) (d one : FVec Ideal ⟨2, ![M, 1]⟩ .f32)
    (hd : (⟨2, ![M, 1]⟩ : Shape).BroadcastsInDim ⟨2, ![M, K]⟩ ![0, 1])
    (hone : ∀ i, one i = 1) (hnz : ∀ i, d i ≠ 0) :
    Host.divf s (broadcastInDim ⟨2, ![M, K]⟩ ![0, 1] hd d) = scaleRows s (Host.divf one d) := by
  funext j
  obtain ⟨a, k, rfl⟩ : ∃ (a : Fin M) (k : Fin K), j = ix2 a k := ⟨j 0, j 1, eq_ix2 j⟩
  have hb : broadcastInDim ⟨2, ![M, K]⟩ ![0, 1] hd d (ix2 a k) = d (ix2 a (0 : Fin 1)) :=
    broadcastInDim_apply ![0, 1] hd d (ix2 a k) (ix2 a (0 : Fin 1)) fun ax => by
      match ax with
      | ⟨0, _⟩ =>
        show a.val = if M = 1 then 0 else a.val
        split
        · have := a.isLt; omega
        · rfl
      | ⟨1, _⟩ => rfl
  rw [scaleRows_apply, hostDivf_apply, hostDivf_apply, hb, hone, div_eq_mul_recip _ _ (hnz _)]

/-- The host's spelling: two `dot_general`s, the sums divided by the broadcast counts, the bias vector broadcast
    twice, a broadcast zero floor. -/
theorem host_form {M K N : ℕ} (h s : FVec Ideal ⟨2, ![M, K]⟩ .f32) (d one : FVec Ideal ⟨2, ![M, 1]⟩ .f32)
    (wl wr : FVec Ideal ⟨2, ![K, N]⟩ .f32) (b : FVec Ideal ⟨1, ![N]⟩ .f32)
    (h0 : (⟨0, ![]⟩ : Shape).BroadcastsInDim ⟨2, ![M, N]⟩ ![])
    (hd : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩)
    (hone : ∀ i, one i = 1) (hnz : ∀ i, d i ≠ 0) :
    maximumf (addf (addf (FloatOps.dotGeneral (DotDims.plain M K N) none .single
            (Host.divf s (broadcastInDim ⟨2, ![M, K]⟩ ![0, 1] hd d)) wl)
          (broadcastInDim ⟨2, ![M, N]⟩ ![0, 1] h2 (broadcastInDim ⟨2, ![1, N]⟩ ![1] h1 b)))
        (FloatOps.dotGeneral (DotDims.plain M K N) none .single h wr))
      (broadcastInDim ⟨2, ![M, N]⟩ ![] h0 (constant (F := Ideal) ⟨0, ![]⟩ .f32 0x00000000#32))
    = layer h s (Host.divf one d) wl wr (shapeCast ⟨2, ![1, N]⟩ b hc) := by
  rw [dotGeneral_plain, dotGeneral_plain, divf_column s d one hd hone hnz, addf_bcastRow _ b h1 h2 hc]
  funext i
  show max (rowBias (rowsTimes (scaleRows s (Host.divf one d)) wl) (shapeCast ⟨2, ![1, N]⟩ b hc) i + rowsTimes h wr i)
      (Ideal.ofBits .f32 0x00000000#32) = _
  rw [Ideal.ofBits_zero_f32]
  rfl

end Cert.SageLayer

end
-- ==== Proof.KernelPayload.lean ====
/-
  What each kernel body stores, as the layer of its loaded blocks.

  Both bodies load a block of node features, of neighbour sums and of reciprocal counts, the two weight matrices and
  the bias row, and store one value: the sums times the reciprocal column, times the left weights, plus the bias row,
  plus the features times the right weights, floored at zero. The changes of float format in between do nothing on the
  extended reals and the shape casts are between equal shapes, so the stored value is `layer` of the loaded blocks.
-/
import proofs.«106729_j23424751632407_2_alg».proof.Proof.Gen.KernelIdeal.Skeleton
import proofs.«106729_j23424751632407_2_alg».proof.Proof.LibSageForms

noncomputable section

namespace Cert.KernelIdeal.Whole

open Cert.KernelIdeal Cert.KernelIdeal.Gen Cert.SageLayer
open Idealize.ShloMosaic Idealize.ShloMosaic.ValueIdx

/-- The bodies' matrix products contract the left operand's lanes with the right operand's rows. -/
theorem dot_plain : (dot_S4000x128_S128x128_S4000x128_1_0_0_1_n_n : DotDims S4000x128 S128x128 S4000x128)
    = DotDims.plain 4000 128 128 := rfl

/-- The first kernel's stored value. -/
theorem pay0_eq (v0 v2 : Vec Ideal S4000x128 .f32) (v4 : Vec Ideal S4000x1 .f32) (v9 v12 : Vec Ideal S128x128 .f32)
    (v16 : Vec Ideal S1x128 .f32) :
    k0_pay1 (F := Ideal) v0 v2 v4 v9 v12 v16 = layer (M := 4000) (K := 128) (N := 128) v0 v2 v4 v9 v12 v16 := by
  unfold k0_pay1
  simp only [shapeCast_self]
  exact body_form (M := 4000) (K := 128) (N := 128) v0 v2 v4 v9 v12 v16 _ broadcasts_S4000x1_S4000x128
    broadcasts_S1x128_S4000x128 rfl

/-- The second kernel's stored value: the same layer, its features already in the narrower format. -/
theorem pay1_eq (v0 : Vec Ideal S4000x128 .bf16) (v2 : Vec Ideal S4000x128 .f32) (v4 : Vec Ideal S4000x1 .f32)
    (v9 v12 : Vec Ideal S128x128 .f32) (v16 : Vec Ideal S1x128 .f32) :
    k1_pay1 (F := Ideal) v0 v2 v4 v9 v12 v16 = layer (M := 4000) (K := 128) (N := 128) v0 v2 v4 v9 v12 v16 := by
  unfold k1_pay1
  simp only [shapeCast_self]
  exact body_form (M := 4000) (K := 128) (N := 128) v0 v2 v4 v9 v12 v16 _ broadcasts_S4000x1_S4000x128
    broadcasts_S1x128_S4000x128 rfl

end Cert.KernelIdeal.Whole

end
-- ==== Proof.Region0.lean ====
/-
  The first kernel's result array, as the layer of the arrays the kernel is launched on.

  The kernel runs over 25 grid points. Point `t` reads rows `4000 t … 4000 t + 3999` of the node features, of the
  neighbour sums and of the reciprocal counts, the whole weight matrices and bias row, and writes rows
  `4000 t … 4000 t + 3999` of the result. What it writes is the layer of the blocks it read; a block of rows of the layer
  is the layer of that block of rows; and the 25 blocks cover the 100000 rows. So the result array ends as the layer of
  the whole arrays.
-/
import proofs.«106729_j23424751632407_2_alg».proof.Proof.Gen.KernelIdeal.Frame
import proofs.«106729_j23424751632407_2_alg».proof.Proof.KernelPayload
import Idealize.ShloMosaic.Lib.Pipeline.Value

set_option maxRecDepth 16384

noncomputable section

namespace Cert.KernelIdeal.Whole

open Cert.KernelIdeal Cert.KernelIdeal.Gen Cert.SageLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The windows' block indices at point `t`: the row windows follow the point, the weights and the bias stay whole. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block of rows is some point's. -/
theorem onto0 : ∀ q : Fin 25, ∃ t : Fin cfg0.N, win0_6.index t = ![q.val, 0] :=
  (by decide +kernel : ∀ q : Fin 25, ∃ t : Fin grid0.N, win0_6.index t = ![q.val, 0])

/-- The layer of the arrays the kernel finds: features, neighbour sums, reciprocal counts, left weights, right weights,
    bias row. -/
def G0 (c : Dev nD) : S100000x128.Idx → EReal :=
  layer (M := 100000) (K := 128) (N := 128) (V c main_arg0) (V c main_v26) (V c main_v16) (V c main_v4) (V c main_v5) (V c main_v27)

/-- What point `t` writes back is its block of rows of the layer of the whole arrays. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero hz0]
  simp only [View.ld_unit_zero (S := S4000x128) hz0, View.ld_unit_zero (S := S4000x1) hz0,
    View.ld_unit_zero (S := S128x128) hz0, View.ld_unit_zero (S := S1x128) hz0]
  rw [pay0_eq]
  obtain ⟨a0, a1, b0, b1, c0, c1, d0, d1, e0, e1, f0, f1, g0, g1⟩ := idx0 t
  funext y
  show layer (iblk0 V c 0 t) (iblk0 V c 1 t) (iblk0 V c 2 t) (iblk0 V c 3 t) (iblk0 V c 5 t) (iblk0 V c 4 t) y
    = G0 V c (((cfg0.win 6).blk t).view.emb y)
  unfold G0
  refine layer_block (t.val * 4000) (V c main_arg0) (V c main_v26) (V c main_v16) (iblk0 V c 0 t) (iblk0 V c 1 t) (iblk0 V c 2 t)
    (V c main_v4) (V c main_v5) (V c main_v27) (iblk0 V c 3 t) (iblk0 V c 5 t) (iblk0 V c 4 t) ?_ ?_ ?_ ?_ ?_ ?_ y _ ?_ ?_
  · funext j
    show V c main_v4 (((cfg0.win 3).blk t).view.emb j) = V c main_v4 j
    refine congrArg _ (funext fun a => Fin.ext ?_)
    match a with
    | ⟨0, _⟩ => show win0_3.index t (0 : Fin 2) * 128 + 1 * (j 0).val = (j 0).val; omega
    | ⟨1, _⟩ => show win0_3.index t (1 : Fin 2) * 128 + 1 * (j 1).val = (j 1).val; omega
  · funext j
    show V c main_v5 (((cfg0.win 5).blk t).view.emb j) = V c main_v5 j
    refine congrArg _ (funext fun a => Fin.ext ?_)
    match a with
    | ⟨0, _⟩ => show win0_5.index t (0 : Fin 2) * 128 + 1 * (j 0).val = (j 0).val; omega
    | ⟨1, _⟩ => show win0_5.index t (1 : Fin 2) * 128 + 1 * (j 1).val = (j 1).val; omega
  · funext j
    show V c main_v27 (((cfg0.win 4).blk t).view.emb j) = V c main_v27 j
    refine congrArg _ (funext fun a => Fin.ext ?_)
    match a with
    | ⟨0, _⟩ => show win0_4.index t (0 : Fin 2) * 1 + 1 * (j 0).val = (j 0).val; omega
    | ⟨1, _⟩ => show win0_4.index t (1 : Fin 2) * 128 + 1 * (j 1).val = (j 1).val; omega
  · intro p k hlt
    show V c main_arg0 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  · intro p k hlt
    show V c main_v26 (((cfg0.win 1).blk t).view.emb (ix2 p k)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 128 + 1 * k.val = k.val; omega
  · intro p hlt
    show V c main_v16 (((cfg0.win 2).blk t).view.emb (ix2 p (0 : Fin 1))) = _
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 1 + 1 * 0 = 0; omega
  · show win0_6.index t (0 : Fin 2) * 4000 + 1 * (y 0).val = t.val * 4000 + (y 0).val; omega
  · show win0_6.index t (1 : Fin 2) * 128 + 1 * (y 1).val = (y 1).val; omega

/-- An index of the result array is in point `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v28).slice (win0_6.rect t)).set ↔ _
  rw [View.set_slice_whole, Rect.mem_set_unit]
  exact Iff.rfl

/-- Row `r` of the result lies in the block of point `r / 4000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := onto0 ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk0]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- The result array after the kernel's 25 points is the layer of the arrays it was launched on. -/
theorem final0 (c : Dev nD) : (dat0 (F := Ideal) V c).arrAt 6 cfg0.N = G0 V c :=
  (dat0 (F := Ideal) V c).arrAt_eq_of_cover 6 (G0 V c) (fun t _ => flushed0_eq V c t) (cover0)

end Cert.KernelIdeal.Whole

end
-- ==== Proof.Region1.lean ====
/-
  The second kernel's result array, as the layer of the arrays the kernel is launched on.

  The kernel runs over 25 grid points. Point `t` reads rows `4000 t … 4000 t + 3999` of the node features, of the
  neighbour sums and of the reciprocal counts, the whole weight matrices and bias row, and writes rows
  `4000 t … 4000 t + 3999` of the result. What it writes is the layer of the blocks it read; a block of rows of the layer
  is the layer of that block of rows; and the 25 blocks cover the 100000 rows. So the result array ends as the layer of
  the whole arrays.
-/
import proofs.«106729_j23424751632407_2_alg».proof.Proof.Gen.KernelIdeal.Frame
import proofs.«106729_j23424751632407_2_alg».proof.Proof.KernelPayload
import Idealize.ShloMosaic.Lib.Pipeline.Value

set_option maxRecDepth 16384

noncomputable section

namespace Cert.KernelIdeal.Whole

open Cert.KernelIdeal Cert.KernelIdeal.Gen Cert.SageLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The windows' block indices at point `t`: the row windows follow the point, the weights and the bias stay whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block of rows is some point's. -/
theorem onto1 : ∀ q : Fin 25, ∃ t : Fin cfg1.N, win1_6.index t = ![q.val, 0] :=
  (by decide +kernel : ∀ q : Fin 25, ∃ t : Fin grid1.N, win1_6.index t = ![q.val, 0])

/-- The layer of the arrays the kernel finds: features, neighbour sums, reciprocal counts, left weights, right weights,
    bias row. -/
def G1 (c : Dev nD) : S100000x128.Idx → EReal :=
  layer (M := 100000) (K := 128) (N := 128) (V c main_v28) (V c main_v39) (V c main_v16) (V c main_v6) (V c main_v7) (V c main_v40)

/-- What point `t` writes back is its block of rows of the layer of the whole arrays. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz1]
  simp only [View.ld_unit_zero (S := S4000x128) hz1, View.ld_unit_zero (S := S4000x1) hz1,
    View.ld_unit_zero (S := S128x128) hz1, View.ld_unit_zero (S := S1x128) hz1]
  rw [pay1_eq]
  obtain ⟨a0, a1, b0, b1, c0, c1, d0, d1, e0, e1, f0, f1, g0, g1⟩ := idx1 t
  funext y
  show layer (iblk1 V c 0 t) (iblk1 V c 1 t) (iblk1 V c 2 t) (iblk1 V c 3 t) (iblk1 V c 5 t) (iblk1 V c 4 t) y
    = G1 V c (((cfg1.win 6).blk t).view.emb y)
  unfold G1
  refine layer_block (t.val * 4000) (V c main_v28) (V c main_v39) (V c main_v16) (iblk1 V c 0 t) (iblk1 V c 1 t) (iblk1 V c 2 t)
    (V c main_v6) (V c main_v7) (V c main_v40) (iblk1 V c 3 t) (iblk1 V c 5 t) (iblk1 V c 4 t) ?_ ?_ ?_ ?_ ?_ ?_ y _ ?_ ?_
  · funext j
    show V c main_v6 (((cfg1.win 3).blk t).view.emb j) = V c main_v6 j
    refine congrArg _ (funext fun a => Fin.ext ?_)
    match a with
    | ⟨0, _⟩ => show win1_3.index t (0 : Fin 2) * 128 + 1 * (j 0).val = (j 0).val; omega
    | ⟨1, _⟩ => show win1_3.index t (1 : Fin 2) * 128 + 1 * (j 1).val = (j 1).val; omega
  · funext j
    show V c main_v7 (((cfg1.win 5).blk t).view.emb j) = V c main_v7 j
    refine congrArg _ (funext fun a => Fin.ext ?_)
    match a with
    | ⟨0, _⟩ => show win1_5.index t (0 : Fin 2) * 128 + 1 * (j 0).val = (j 0).val; omega
    | ⟨1, _⟩ => show win1_5.index t (1 : Fin 2) * 128 + 1 * (j 1).val = (j 1).val; omega
  · funext j
    show V c main_v40 (((cfg1.win 4).blk t).view.emb j) = V c main_v40 j
    refine congrArg _ (funext fun a => Fin.ext ?_)
    match a with
    | ⟨0, _⟩ => show win1_4.index t (0 : Fin 2) * 1 + 1 * (j 0).val = (j 0).val; omega
    | ⟨1, _⟩ => show win1_4.index t (1 : Fin 2) * 128 + 1 * (j 1).val = (j 1).val; omega
  · intro p k hlt
    show V c main_v28 (((cfg1.win 0).blk t).view.emb (ix2 p k)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  · intro p k hlt
    show V c main_v39 (((cfg1.win 1).blk t).view.emb (ix2 p k)) = _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * k.val = k.val; omega
  · intro p hlt
    show V c main_v16 (((cfg1.win 2).blk t).view.emb (ix2 p (0 : Fin 1))) = _
    refine congrArg _ (funext fun a => Fin.ext ?_)
    match a with
    | ⟨0, _⟩ => show win1_2.index t (0 : Fin 2) * 4000 + 1 * p.val = t.val * 4000 + p.val; omega
    | ⟨1, _⟩ => show win1_2.index t (1 : Fin 2) * 1 + 1 * 0 = 0; omega
  · show win1_6.index t (0 : Fin 2) * 4000 + 1 * (y 0).val = t.val * 4000 + (y 0).val; omega
  · show win1_6.index t (1 : Fin 2) * 128 + 1 * (y 1).val = (y 1).val; omega

/-- An index of the result array is in point `t`'s block iff each coordinate is in the block's range on its axis. -/
theorem mem_blk1 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v41).slice (win1_6.rect t)).set ↔ _
  rw [View.set_slice_whole, Rect.mem_set_unit]
  exact Iff.rfl

/-- Row `r` of the result lies in the block of point `r / 4000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := onto1 ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk1]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- The result array after the kernel's 25 points is the layer of the arrays it was launched on. -/
theorem final1 (c : Dev nD) : (dat1 (F := Ideal) V c).arrAt 6 cfg1.N = G1 V c :=
  (dat1 (F := Ideal) V c).arrAt_eq_of_cover 6 (G1 V c) (fun t _ => flushed1_eq V c t) (cover1)

end Cert.KernelIdeal.Whole

end
-- ==== Proof.RefLayers.lean ====
/-
  The reference's two layers, each read as `layer`.

  The reference computes a layer as: neighbour sums divided by the broadcast counts `max (count, 1)`, times the
  transposed left weights, plus the bias vector broadcast to every row, plus the features times the transposed right
  weights, floored at zero. A count floored at one is never zero, so the quotient is the product with the reciprocal
  `1 / max (count, 1)`, and the layer is `layer` with that column of reciprocals as the weights of the rows. The second
  layer takes the first one's result as its features, and recomputes the same counts.
-/
import proofs.«106729_j23424751632407_2_alg».proof.Proof.Gen.ReferenceIdeal.Read
import proofs.«106729_j23424751632407_2_alg».proof.Proof.LibSageForms

noncomputable section

namespace Cert.ReferenceIdeal.Layers

open Cert.ReferenceIdeal Cert.ReferenceIdeal.Gen Cert.ReferenceIdeal.Read Cert.SageLayer
open Idealize.ShloMosaic Idealize.ShloMosaic.ValueIdx

/-- The column the counts are floored with holds ones. -/
theorem ones_apply (i : S100000x1.Idx) : val_main_v18 (F := Ideal) i = 1 := by
  unfold val_main_v18 val_main_cst_3
  rw [broadcastInDim_scalar_apply, constant_apply]
  exact Ideal.ofBits_one_f32

/-- A count floored at one is not zero. -/
theorem counts_ne (x1 : (⟨S2x800000, .i32⟩ : BufTy).Contents (Elt Ideal)) (i : S100000x1.Idx) :
    val_main_v19 (F := Ideal) x1 i ≠ 0 := by
  unfold val_main_v19
  rw [maximumf_apply, ones_apply]
  exact max_one_ne_zero _

/-- The second layer's counts are the first layer's, computed again. -/
theorem counts_again (x1 : (⟨S2x800000, .i32⟩ : BufTy).Contents (Elt Ideal)) :
    val_main_v46 (F := Ideal) x1 = val_main_v19 (F := Ideal) x1 := rfl

/-- The reciprocal counts: a column of ones over the counts floored at one. -/
def recip (x1 : (⟨S2x800000, .i32⟩ : BufTy).Contents (Elt Ideal)) : FVec Ideal S100000x1 .f32 :=
  Host.divf (val_main_v18 (F := Ideal)) (val_main_v19 (F := Ideal) x1)

/-- The reference's first layer. -/
theorem layer1_eq (x0 : (⟨S100000x128, .f32⟩ : BufTy).Contents (Elt Ideal)) (x1 : (⟨S2x800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (hc : S128.ShapeCasts S1x128) :
    val_main_v30 (F := Ideal) x0 x1 x4 x5 x6
      = layer (M := 100000) (K := 128) (N := 128) x0 (val_main_v13 (F := Ideal) x0 x1) (recip x1)
          (val_main_v22 (F := Ideal) x4) (val_main_v27 (F := Ideal) x6) (shapeCast S1x128 x5 hc) := by
  unfold val_main_v30 val_main_v29 val_main_v26 val_main_v23 val_main_v21 val_main_v20 val_main_v25 val_main_v24
    val_main_v28 val_main_call0_v0 val_main_call0_cst recip
  exact host_form (M := 100000) (K := 128) (N := 128) x0 (val_main_v13 (F := Ideal) x0 x1) (val_main_v19 (F := Ideal) x1)
    (val_main_v18 (F := Ideal)) (val_main_v22 (F := Ideal) x4) (val_main_v27 (F := Ideal) x6) x5 bcast_S_S100000x128
    bcast_S100000x1_S100000x128_0_1 bcast_S128_S1x128_1 bcast_S1x128_S100000x128_0_1 hc ones_apply (counts_ne x1)

/-- The reference's second layer, over the first layer's result and the neighbour sums gathered from it. -/
theorem layer2_eq (x0 : (⟨S100000x128, .f32⟩ : BufTy).Contents (Elt Ideal)) (x1 : (⟨S2x800000, .i32⟩ : BufTy).Contents (Elt Ideal))
    (x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 : (⟨S128x128, .f32⟩ : BufTy).Contents (Elt Ideal)) (hc : S128.ShapeCasts S1x128) :
    val_main_v57 (F := Ideal) x0 x1 x4 x5 x6 x7 x8 x9
      = layer (M := 100000) (K := 128) (N := 128) (val_main_v30 (F := Ideal) x0 x1 x4 x5 x6)
          (val_main_v40 (F := Ideal) x0 x1 x4 x5 x6) (recip x1) (val_main_v49 (F := Ideal) x7)
          (val_main_v54 (F := Ideal) x9) (shapeCast S1x128 x8 hc) := by
  unfold val_main_v57 val_main_v56 val_main_v53 val_main_v50 val_main_v48 val_main_v47 val_main_v52 val_main_v51
    val_main_v55 val_main_call1_v0 val_main_call1_cst recip
  rw [counts_again]
  exact host_form (M := 100000) (K := 128) (N := 128) (val_main_v30 (F := Ideal) x0 x1 x4 x5 x6)
    (val_main_v40 (F := Ideal) x0 x1 x4 x5 x6) (val_main_v19 (F := Ideal) x1)
    (val_main_v18 (F := Ideal)) (val_main_v49 (F := Ideal) x7) (val_main_v54 (F := Ideal) x9) x8 bcast_S_S100000x128
    bcast_S100000x1_S100000x128_0_1 bcast_S128_S1x128_1 bcast_S1x128_S100000x128_0_1 hc ones_apply (counts_ne x1)

end Cert.ReferenceIdeal.Layers

end
-- ==== Proof.KernelValue.lean ====
/-
  The idealized kernel's result, buffer by buffer, in the reference's terms.

  The program's contents at its five boundaries are followed from the launch memory to the returned array. After the
  first stretch of host operations the edge endpoints, the transposed weights, the neighbour sums of the input
  features and the reciprocal counts `1 / max (count, 1)` are the same expressions of the argument arrays as the
  reference's. The first kernel leaves the layer of those arrays, which is the reference's first layer. The second
  stretch gathers and sums that array over the same edges (the change of float format in between does nothing here),
  the second kernel leaves the reference's second layer, and the last stretch pools, concatenates and applies the
  final linear map exactly as the reference does. So the returned array is the reference's result expression.
-/
import proofs.«106729_j23424751632407_2_alg».proof.Proof.KernelRun
import proofs.«106729_j23424751632407_2_alg».proof.Proof.Region0
import proofs.«106729_j23424751632407_2_alg».proof.Proof.Region1
import proofs.«106729_j23424751632407_2_alg».proof.Proof.RefLayers
import Idealize.ShloMosaic.Lib.StableHlo.Run

set_option maxRecDepth 16384

noncomputable section

namespace Cert.KernelIdeal.Whole

open Cert.KernelIdeal Cert.KernelIdeal.Gen Cert.SageLayer Cert.ReferenceIdeal.Read Cert.ReferenceIdeal.Layers
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch of host operations -/

theorem W1_v1 : W1 m ρ c (Proc.devRef .tc main_v1) = val_main_v1 (F := Ideal) (m ((c : Thread nD τ).loc main_arg1)) := by
  dsimp only [W1, hostOps0]
  after_results_simp <;> rfl

theorem W1_v3 : W1 m ρ c (Proc.devRef .tc main_v3) = val_main_v3 (F := Ideal) (m ((c : Thread nD τ).loc main_arg1)) := by
  dsimp only [W1, hostOps0]
  after_results_simp <;> rfl

theorem W1_v4 : W1 m ρ c (Proc.devRef .tc main_v4) = val_main_v22 (F := Ideal) (m ((c : Thread nD τ).loc main_arg4)) := by
  dsimp only [W1, hostOps0]
  after_results_simp <;> rfl

theorem W1_v5 : W1 m ρ c (Proc.devRef .tc main_v5) = val_main_v27 (F := Ideal) (m ((c : Thread nD τ).loc main_arg6)) := by
  dsimp only [W1, hostOps0]
  after_results_simp <;> rfl

theorem W1_v6 : W1 m ρ c (Proc.devRef .tc main_v6) = val_main_v49 (F := Ideal) (m ((c : Thread nD τ).loc main_arg7)) := by
  dsimp only [W1, hostOps0]
  after_results_simp <;> rfl

theorem W1_v7 : W1 m ρ c (Proc.devRef .tc main_v7) = val_main_v54 (F := Ideal) (m ((c : Thread nD τ).loc main_arg9)) := by
  dsimp only [W1, hostOps0]
  after_results_simp <;> rfl

theorem W1_v8 : W1 m ρ c (Proc.devRef .tc main_v8) = val_main_v70 (F := Ideal) (m ((c : Thread nD τ).loc main_arg10)) := by
  dsimp only [W1, hostOps0]
  after_results_simp <;> rfl

/-- The reciprocal counts: a column of ones over the counts floored at one. -/
theorem W1_v16 : W1 m ρ c (Proc.devRef .tc main_v16) = recip (m ((c : Thread nD τ).loc main_arg1)) := by
  dsimp only [W1, hostOps0]
  after_results_simp <;> rfl

/-- The neighbour sums of the input features. -/
theorem W1_v26 : W1 m ρ c (Proc.devRef .tc main_v26) = val_main_v13 (F := Ideal) (m ((c : Thread nD τ).loc main_arg0)) (m ((c : Thread nD τ).loc main_arg1)) := by
  dsimp only [W1, hostOps0]
  after_results_simp <;> rfl

/-- The first bias, as one row. -/
theorem W1_v27 : W1 m ρ c (Proc.devRef .tc main_v27) = shapeCast S1x128 (m ((c : Thread nD τ).loc main_arg5)) shapeCasts_S128_S1x128 := by
  dsimp only [W1, hostOps0]
  after_results_simp <;> rfl

theorem W1_arg0 : W1 m ρ c (Proc.devRef .tc main_arg0) = (m ((c : Thread nD τ).loc main_arg0)) := by
  dsimp only [W1, hostOps0]
  after_results_simp <;> rfl

theorem W1_arg2 : W1 m ρ c (Proc.devRef .tc main_arg2) = (m ((c : Thread nD τ).loc main_arg2)) := by
  dsimp only [W1, hostOps0]
  after_results_simp <;> rfl

theorem W1_arg3 : W1 m ρ c (Proc.devRef .tc main_arg3) = (m ((c : Thread nD τ).loc main_arg3)) := by
  dsimp only [W1, hostOps0]
  after_results_simp <;> rfl

theorem W1_arg8 : W1 m ρ c (Proc.devRef .tc main_arg8) = (m ((c : Thread nD τ).loc main_arg8)) := by
  dsimp only [W1, hostOps0]
  after_results_simp <;> rfl

theorem W1_arg11 : W1 m ρ c (Proc.devRef .tc main_arg11) = (m ((c : Thread nD τ).loc main_arg11)) := by
  dsimp only [W1, hostOps0]
  after_results_simp <;> rfl

/-! ## After the first kernel -/

/-- An input array of the first kernel is left as it was. -/
theorem W2_v16 : W2 m ρ c (Proc.devRef .tc main_v16) = W1 m ρ c (Proc.devRef .tc main_v16) :=
  (W2_arr m ρ c 2).trans (((dat0 (V1 m ρ) c).arrAt_in 2 rfl _).trans (A_eq0 (V1 m ρ) c 2))

/-- The first kernel's result is the reference's first layer. -/
theorem W2_v28 : W2 m ρ c (Proc.devRef .tc main_v28) = val_main_v30 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine ((W2_arr m ρ c 6).trans (final0 (V1 m ρ) c)).trans ?_
  unfold G0
  show layer (M := 100000) (K := 128) (N := 128) (W1 m ρ c (Proc.devRef .tc main_arg0)) (W1 m ρ c (Proc.devRef .tc main_v26)) (W1 m ρ c (Proc.devRef .tc main_v16))
    (W1 m ρ c (Proc.devRef .tc main_v4)) (W1 m ρ c (Proc.devRef .tc main_v5)) (W1 m ρ c (Proc.devRef .tc main_v27)) = _
  rw [W1_arg0, W1_v26, W1_v16, W1_v4, W1_v5, W1_v27]
  exact (layer1_eq _ _ _ _ _ shapeCasts_S128_S1x128).symm

/-! ## After the second stretch of host operations -/

theorem W3_v28 : W3 m ρ c (Proc.devRef .tc main_v28) = val_main_v30 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  dsimp only [W3, hostOps1]
  after_results_simp
  exact W2_v28 m ρ c

theorem W3_v16 : W3 m ρ c (Proc.devRef .tc main_v16) = recip (m ((c : Thread nD τ).loc main_arg1)) := by
  dsimp only [W3, hostOps1]
  after_results_simp
  rw [W2_v16]
  exact W1_v16 m ρ c

theorem W3_v6 : W3 m ρ c (Proc.devRef .tc main_v6) = val_main_v49 (F := Ideal) (m ((c : Thread nD τ).loc main_arg7)) := by
  dsimp only [W3, hostOps1]
  after_results_simp
  rw [W2_of_ne m ρ c main_v6 (by decide)]
  exact W1_v6 m ρ c

theorem W3_v7 : W3 m ρ c (Proc.devRef .tc main_v7) = val_main_v54 (F := Ideal) (m ((c : Thread nD τ).loc main_arg9)) := by
  dsimp only [W3, hostOps1]
  after_results_simp
  rw [W2_of_ne m ρ c main_v7 (by decide)]
  exact W1_v7 m ρ c

theorem W3_v8 : W3 m ρ c (Proc.devRef .tc main_v8) = val_main_v70 (F := Ideal) (m ((c : Thread nD τ).loc main_arg10)) := by
  dsimp only [W3, hostOps1]
  after_results_simp
  rw [W2_of_ne m ρ c main_v8 (by decide)]
  exact W1_v8 m ρ c

theorem W3_arg2 : W3 m ρ c (Proc.devRef .tc main_arg2) = (m ((c : Thread nD τ).loc main_arg2)) := by
  dsimp only [W3, hostOps1]
  after_results_simp
  rw [W2_of_ne m ρ c main_arg2 (by decide)]
  exact W1_arg2 m ρ c

theorem W3_arg3 : W3 m ρ c (Proc.devRef .tc main_arg3) = (m ((c : Thread nD τ).loc main_arg3)) := by
  dsimp only [W3, hostOps1]
  after_results_simp
  rw [W2_of_ne m ρ c main_arg3 (by decide)]
  exact W1_arg3 m ρ c

theorem W3_arg11 : W3 m ρ c (Proc.devRef .tc main_arg11) = (m ((c : Thread nD τ).loc main_arg11)) := by
  dsimp only [W3, hostOps1]
  after_results_simp
  rw [W2_of_ne m ρ c main_arg11 (by decide)]
  exact W1_arg11 m ρ c

/-- The second bias, as one row. -/
theorem W3_v40 : W3 m ρ c (Proc.devRef .tc main_v40) = shapeCast S1x128 (m ((c : Thread nD τ).loc main_arg8)) shapeCasts_S128_S1x128 := by
  dsimp only [W3, hostOps1]
  after_results_simp
  rw [W2_of_ne m ρ c main_arg8 (by decide), W1_arg8]
  rfl

/-- The neighbour sums of the first layer's result. -/
theorem W3_v39 : W3 m ρ c (Proc.devRef .tc main_v39) = val_main_v40 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  dsimp only [W3, hostOps1]
  after_results_simp
  rw [W2_v28, W2_of_ne m ρ c main_v1 (by decide), W2_of_ne m ρ c main_v3 (by decide), W1_v1, W1_v3]
  rfl

/-! ## After the second kernel -/

/-- The second kernel's result is the reference's second layer. -/
theorem W4_v41 : W4 m ρ c (Proc.devRef .tc main_v41) = val_main_v57 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 6).trans (final1 (V3 m ρ) c)).trans ?_
  unfold G1
  show layer (M := 100000) (K := 128) (N := 128) (W3 m ρ c (Proc.devRef .tc main_v28)) (W3 m ρ c (Proc.devRef .tc main_v39)) (W3 m ρ c (Proc.devRef .tc main_v16))
    (W3 m ρ c (Proc.devRef .tc main_v6)) (W3 m ρ c (Proc.devRef .tc main_v7)) (W3 m ρ c (Proc.devRef .tc main_v40)) = _
  rw [W3_v28, W3_v39, W3_v16, W3_v6, W3_v7, W3_v40]
  exact (layer2_eq _ _ _ _ _ _ _ _ shapeCasts_S128_S1x128).symm

/-! ## The returned array -/

/-- The per-graph mean of the second layer's result: its rows summed per graph, over the graph's node count floored at one. -/
def pool (h2 : FVec Ideal S100000x128 .bf16) (b : (⟨S100000, .i32⟩ : BufTy).Contents (Elt Ideal)) : FVec Ideal S64x128 .f32 :=
  Host.divf
    (Host.scatterAdd scatter_S64x128_S100000x1_S100000x128_1_0_0_1
      (broadcastInDim S64x128 ![] bcast_S_S64x128 (constant (F := Ideal) S_ .f32 0x00000000#32))
      (broadcastInDim S100000x1 ![0] bcast_S100000_S100000x1_0 b) (extf .f32 h2 bitsLt_bf16_f32))
    (broadcastInDim S64x128 ![0, 1] bcast_S64x1_S64x128_0_1
      (maximumf
        (Host.scatterAdd scatter_S64x1_S100000x1_S100000x1_1_0_0_1
          (broadcastInDim S64x1 ![] bcast_S_S64x1 (constant (F := Ideal) S_ .f32 0x00000000#32))
          (broadcastInDim S100000x1 ![0] bcast_S100000_S100000x1_0 b)
          (broadcastInDim S100000x1 ![] bcast_S_S100000x1 (constant (F := Ideal) S_ .f32 0x3F800000#32)))
        (broadcastInDim S64x1 ![] bcast_S_S64x1 (constant (F := Ideal) S_ .f32 0x3F800000#32))))

/-- The head: the pooled means with the per-graph embedding appended, times the final weights, plus the final bias. -/
def headf (p : FVec Ideal S64x128 .f32) (e : FVec Ideal S64x64 .f32) (wt : FVec Ideal S192x8 .f32) (bl : FVec Ideal S8 .f32) :
    FVec Ideal S64x8 .f32 :=
  addf (Host.dotGeneral dot_S64x192_S192x8_S64x8_1_0_0_1_n_n none
      (concatenate S64x192 1 [⟨S64x128, p⟩, ⟨S64x64, e⟩] concatenates_S64x128_S64x64_S64x192_d1) wt)
    (broadcastInDim S64x8 ![0, 1] bcast_S1x8_S64x8_0_1 (broadcastInDim S1x8 ![1] bcast_S8_S1x8_1 bl))

/-- The last stretch is its first sixteen operations, which pool, followed by its last five, the head. -/
theorem W5_split : W5 m ρ c = StableHlo.after ((hostOps2 (F := Ideal)).drop 16)
    (StableHlo.after ((hostOps2 (F := Ideal)).take 16) (W4 m ρ c)) := rfl

/-- The last five operations, over any contents: the head of what they read. -/
theorem last5 (F : Valuation τ sig (Elt Ideal)) :
    StableHlo.after ((hostOps2 (F := Ideal)).drop 16) F (Proc.devRef .tc main_v58)
      = headf (F (Proc.devRef .tc main_v53)) (F (Proc.devRef .tc main_arg3)) (F (Proc.devRef .tc main_v8))
          (F (Proc.devRef .tc main_arg11)) := by
  simp only [hostOps2, List.drop_succ_cons, List.drop_zero]
  after_results_simp <;> rfl

/-- The first sixteen operations leave the pooled means of the second kernel's result. -/
theorem pooled : StableHlo.after ((hostOps2 (F := Ideal)).take 16) (W4 m ρ c) (Proc.devRef .tc main_v53)
    = pool (W4 m ρ c (Proc.devRef .tc main_v41)) (W4 m ρ c (Proc.devRef .tc main_arg2)) := by
  simp only [hostOps2, List.take_succ_cons, List.take_zero]
  after_results_simp <;> rfl

theorem kept_arg3 : StableHlo.after ((hostOps2 (F := Ideal)).take 16) (W4 m ρ c) (Proc.devRef .tc main_arg3) = W4 m ρ c (Proc.devRef .tc main_arg3) := by
  simp only [hostOps2, List.take_succ_cons, List.take_zero]
  after_results_simp

theorem kept_v8 : StableHlo.after ((hostOps2 (F := Ideal)).take 16) (W4 m ρ c) (Proc.devRef .tc main_v8) = W4 m ρ c (Proc.devRef .tc main_v8) := by
  simp only [hostOps2, List.take_succ_cons, List.take_zero]
  after_results_simp

theorem kept_arg11 : StableHlo.after ((hostOps2 (F := Ideal)).take 16) (W4 m ρ c) (Proc.devRef .tc main_arg11) = W4 m ρ c (Proc.devRef .tc main_arg11) := by
  simp only [hostOps2, List.take_succ_cons, List.take_zero]
  after_results_simp

/-- Pooling the reference's second layer is the reference's pooled means. -/
theorem pool_ref (x0 : FVec Ideal S100000x128 .f32) (x1 : (⟨S2x800000, .i32⟩ : BufTy).Contents (Elt Ideal))
    (x2 : (⟨S100000, .i32⟩ : BufTy).Contents (Elt Ideal)) (x4 : FVec Ideal S128x128 .f32)
    (x5 : FVec Ideal S128 .f32) (x6 x7 : FVec Ideal S128x128 .f32) (x8 : FVec Ideal S128 .f32) (x9 : FVec Ideal S128x128 .f32) :
    pool (val_main_v57 (F := Ideal) x0 x1 x4 x5 x6 x7 x8 x9) x2 = val_main_v68 (F := Ideal) x0 x1 x2 x4 x5 x6 x7 x8 x9 := by
  unfold pool val_main_v68 val_main_v67 val_main_v66 val_main_v65 val_main_cst_13 val_main_v64 val_main_v63 val_main_v62
    val_main_cst_12 val_main_v61 val_main_cst_11 val_main_v60 val_main_v59 val_main_v58 val_main_cst_10
  rw [extf_id]
  rfl

/-- The head over the reference's pooled means is the reference's result expression. -/
theorem head_ref (x0 : FVec Ideal S100000x128 .f32) (x1 : (⟨S2x800000, .i32⟩ : BufTy).Contents (Elt Ideal))
    (x2 : (⟨S100000, .i32⟩ : BufTy).Contents (Elt Ideal)) (x3 : FVec Ideal S64x64 .f32) (x4 : FVec Ideal S128x128 .f32)
    (x5 : FVec Ideal S128 .f32) (x6 x7 : FVec Ideal S128x128 .f32) (x8 : FVec Ideal S128 .f32) (x9 : FVec Ideal S128x128 .f32)
    (x10 : FVec Ideal S8x192 .f32) (x11 : FVec Ideal S8 .f32) :
    headf (val_main_v68 (F := Ideal) x0 x1 x2 x4 x5 x6 x7 x8 x9) x3 (val_main_v70 (F := Ideal) x10) x11
      = val_main_v74 (F := Ideal) x0 x1 x2 x3 x4 x5 x6 x7 x8 x9 x10 x11 := by
  unfold headf val_main_v74 val_main_v73 val_main_v72 val_main_v71 val_main_v69
  rfl

/-- The returned array is the reference's result expression of the argument arrays. -/
theorem W5_out : W5 m ρ c (Proc.devRef .tc main_v58) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after ((hostOps2 (F := Ideal)).drop 16)
    (StableHlo.after ((hostOps2 (F := Ideal)).take 16) (W4 m ρ c)) (Proc.devRef .tc main_v58) = _
  rw [last5, pooled, kept_arg3, kept_v8, kept_arg11, W4_v41, W4_of_ne m ρ c main_v8 (by decide),
    W4_of_ne m ρ c main_arg2 (by decide), W4_of_ne m ρ c main_arg3 (by decide), W4_of_ne m ρ c main_arg11 (by decide),
    W3_v8, W3_arg2, W3_arg3, W3_arg11, pool_ref]
  exact head_ref _ _ _ _ _ _ _ _ _ _ _ _

end Cert.KernelIdeal.Whole

end
-- ==== Proof.Claims.lean ====
/-
  The five claims.

  The three frames are the generated runs. The idealization rewrote nothing, so there is nothing to preserve. For the
  value claim: the idealized kernel's run ends with the returned array at the composed contents of its five stretches,
  which is the reference's result expression of the argument arrays; the reference's run ends at the same expression
  of its own arguments; and the two memories agree on the arguments.
-/
import proofs.«106729_j23424751632407_2_alg».proof.Defs
import proofs.«106729_j23424751632407_2_alg».proof.Proof.Gen.Kernel.Frame
import proofs.«106729_j23424751632407_2_alg».proof.Proof.Gen.KernelIdeal.Frame
import proofs.«106729_j23424751632407_2_alg».proof.Proof.Gen.ReferenceIdeal.Run
import proofs.«106729_j23424751632407_2_alg».proof.Proof.Gen.ReferenceIdeal.Read
import proofs.«106729_j23424751632407_2_alg».proof.Proof.Gen.Pre_finite_inputs
import proofs.«106729_j23424751632407_2_alg».proof.Proof.KernelValue

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same returned array: the reference's result expression of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v58), ?_, ?_⟩
  · exact (θ_run Cert.KernelIdeal.defs _ _).mono (fun r h c =>
      ⟨h c Cert.KernelIdeal.main_v58 (by decide),
        (h c Cert.KernelIdeal.main_arg0 (by decide)).trans (Cert.KernelIdeal.Gen.W5_main_arg0 m ρ c),
        (h c Cert.KernelIdeal.main_arg1 (by decide)).trans (Cert.KernelIdeal.Gen.W5_main_arg1 m ρ c),
        (h c Cert.KernelIdeal.main_arg2 (by decide)).trans (Cert.KernelIdeal.Gen.W5_main_arg2 m ρ c),
        (h c Cert.KernelIdeal.main_arg3 (by decide)).trans (Cert.KernelIdeal.Gen.W5_main_arg3 m ρ c),
        (h c Cert.KernelIdeal.main_arg4 (by decide)).trans (Cert.KernelIdeal.Gen.W5_main_arg4 m ρ c),
        (h c Cert.KernelIdeal.main_arg5 (by decide)).trans (Cert.KernelIdeal.Gen.W5_main_arg5 m ρ c),
        (h c Cert.KernelIdeal.main_arg6 (by decide)).trans (Cert.KernelIdeal.Gen.W5_main_arg6 m ρ c),
        (h c Cert.KernelIdeal.main_arg7 (by decide)).trans (Cert.KernelIdeal.Gen.W5_main_arg7 m ρ c),
        (h c Cert.KernelIdeal.main_arg8 (by decide)).trans (Cert.KernelIdeal.Gen.W5_main_arg8 m ρ c),
        (h c Cert.KernelIdeal.main_arg9 (by decide)).trans (Cert.KernelIdeal.Gen.W5_main_arg9 m ρ c),
        (h c Cert.KernelIdeal.main_arg10 (by decide)).trans (Cert.KernelIdeal.Gen.W5_main_arg10 m ρ c),
        (h c Cert.KernelIdeal.main_arg11 (by decide)).trans (Cert.KernelIdeal.Gen.W5_main_arg11 m ρ c)⟩)
      (Cert.KernelIdeal.Whole.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.KernelIdeal.Whole.W5_out m ρ c).symm

end Cert.Proof.Claims

end
-- ==== Proof.lean ====
/- A two-layer mean-aggregating graph network with a pooled linear head, a kernel against its reference.

   Both programs gather the features of each edge's source node, sum them at the edge's destination, and feed the
   mean to a layer: mean times left weights, plus bias, plus the node's own features times right weights, floored at
   zero — twice — then average the nodes of each graph, append a per-graph embedding and apply a final linear map.
   They differ in one place. The reference divides each node's neighbour sum by `max (count, 1)`; the kernel computes
   the column `1 / max (count, 1)` once on the host and multiplies by it inside both layer kernels, each of which runs
   over 25 blocks of 4000 rows. On the extended reals a quotient by a nonzero `d` is the product with `1 / d` (both
   are `x * d⁻¹`), and a count floored at one is never zero, so the two agree at every entry, whatever the edge lists
   hold; the matrix products, the changes of float format and the tiling make no difference there.

   Proof/LibSageLayer.lean states the layer on the extended reals and that a block of its rows is the layer of that block of
   rows; Proof/LibSageForms.lean reads the kernel body's and the host's spellings as that layer; Proof/KernelPayload.lean,
   Proof/Region0.lean and Proof/Region1.lean carry this from a body's stored block to each kernel's whole result array;
   Proof/RefLayers.lean reads the reference's two layers; Proof/KernelRun.lean and Proof/KernelValue.lean follow the
   kernel program's buffers from the launch to the returned array; Proof/Claims.lean states the five claims. -/
import proofs.«106729_j23424751632407_2_alg».proof.Defs
import proofs.«106729_j23424751632407_2_alg».proof.Proof.Claims
import proofs.«106729_j23424751632407_2_alg».proof.Proof.Gen.Kernel
import proofs.«106729_j23424751632407_2_alg».proof.Proof.Gen.KernelIdeal
import proofs.«106729_j23424751632407_2_alg».proof.Proof.Gen.ReferenceIdeal
import proofs.«106729_j23424751632407_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
